-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S128x128 .f32) (main_arg3 : FVec F S128 .f32) (main_arg4 : FVec F S128x2 .f32) (main_arg5 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S64x128 : Shape := ⟨2, ![64, 128]⟩
abbrev S1x128 : Shape := ⟨2, ![1, 128]⟩
abbrev S1x2 : Shape := ⟨2, ![1, 2]⟩
abbrev S1250000x2 : Shape := ⟨2, ![1250000, 2]⟩
abbrev S10000x64 : Shape := ⟨2, ![10000, 64]⟩
abbrev S10000x2 : Shape := ⟨2, ![10000, 2]⟩
abbrev S10000x128 : Shape := ⟨2, ![10000, 128]⟩

abbrev nBuf : Space → Nat
  | .hbm => 34
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S100000x64, .bf16⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .bf16⟩
  | .hbm, ⟨18, _⟩ => ⟨S1x1250000, .i32⟩
  | .hbm, ⟨19, _⟩ => ⟨S1250000, .i32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x64, .bf16⟩
  | .hbm, ⟨29, _⟩ => ⟨S64x128, .f32⟩
  | .hbm, ⟨30, _⟩ => ⟨S64x128, .f32⟩
  | .hbm, ⟨31, _⟩ => ⟨S1x128, .f32⟩
  | .hbm, ⟨32, _⟩ => ⟨S1x2, .f32⟩
  | .hbm, ⟨33, _⟩ => ⟨S1250000x2, .f32⟩
  | .local _ .vmem, ⟨0, _⟩ => ⟨S10000x64, .bf16⟩
  | .local _ .vmem, ⟨1, _⟩ => ⟨S10000x64, .bf16⟩
  | .local _ .vmem, ⟨2, _⟩ => ⟨S10000x64, .bf16⟩
  | .local _ .vmem, ⟨3, _⟩ => ⟨S10000x64, .bf16⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x2, .f32⟩
  | .local _ .vmem, ⟨8, _⟩ => ⟨S1x2, .f32⟩
  | .local _ .vmem, ⟨9, _⟩ => ⟨S10000x2, .f32⟩
  | .local _ .vmem, ⟨10, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  slices_S2x1250000_S1x1250000_1_0 : S2x1250000.Slices ![1, 0] S1x1250000
  slices_S128x128_S64x128_0_0 : S128x128.Slices ![0, 0] S64x128
  slices_S128x128_S64x128_64_0 : S128x128.Slices ![64, 0] S64x128
  shapeCasts_S128_S1x128 : S128.ShapeCasts S1x128
  shapeCasts_S2_S1x2 : S2.ShapeCasts S1x2
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  gather_S100000x64_S1250000x1_S1250000x64_1_0_n_n_0_1_164_wf : GatherDims.WF S100000x64 S1250000x1 S1250000x64 [1] [0] [] [0] [] 1 ![1, 64]
  dot_S10000x64_S64x128_S10000x128_1_0_0_1_n_n_wf : DotDims.WF S10000x64 S64x128 S10000x128 [1] [0] [0] [1] [] []
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .bf16 = 32 ∨ (Rect.block (s := S1250000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1250000x64.size a
  hwx0_1 : ∀ i : grid0.Coords, EltTy.bits .bf16 = 32 ∨ (Rect.block (s := S1250000x64) S10000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2.size a ≤ S128x2.size a
  hwx0_5 : ∀ i : grid0.Coords, EltTy.bits .f32 = 32 ∨ (Rect.block (s := S128x2) S128x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x2.size a ≤ S1250000x2.size a
  hwx0_7 : ∀ i : grid0.Coords, EltTy.bits .f32 = 32 ∨ (Rect.block (s := S1250000x2) S10000x2.size (cc0_transform_7 i) (hinb0_7 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S10000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1250000x128 : Shape := ⟨2, ![1250000, 128]⟩
abbrev S1x128 : Shape := ⟨2, ![1, 128]⟩
abbrev S1250000x2 : Shape := ⟨2, ![1250000, 2]⟩
abbrev S1x2 : Shape := ⟨2, ![1, 2]⟩

abbrev nBuf : Space → Nat
  | .hbm => 40
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S1x1250000, .i32⟩
  | .hbm, ⟨18, _⟩ => ⟨S1250000, .i32⟩
  | .hbm, ⟨19, _⟩ => ⟨S_, .i32⟩
  | .hbm, ⟨20, _⟩ => ⟨S1250000, .i32⟩
  | .hbm, ⟨21, _⟩ => ⟨S1250000, .i1⟩
  | .hbm, ⟨22, _⟩ => ⟨S_, .i32⟩
  | .hbm, ⟨23, _⟩ => ⟨S1250000, .i32⟩
  | .hbm, ⟨24, _⟩ => ⟨S1250000, .i32⟩
  | .hbm, ⟨25, _⟩ => ⟨S1250000, .i32⟩
  | .hbm, ⟨26, _⟩ => ⟨S1250000x1, .i32⟩
  | .hbm, ⟨27, _⟩ => ⟨S1250000x64, .f32⟩
  | .hbm, ⟨28, _⟩ => ⟨S1250000x128, .f32⟩
  | .hbm, ⟨29, _⟩ => ⟨S1250000x128, .f32⟩
  | .hbm, ⟨30, _⟩ => ⟨S1x128, .f32⟩
  | .hbm, ⟨31, _⟩ => ⟨S1250000x128, .f32⟩
  | .hbm, ⟨32, _⟩ => ⟨S1250000x128, .f32⟩
  | .hbm, ⟨33, _⟩ => ⟨S_, .f32⟩
  | .hbm, ⟨34, _⟩ => ⟨S1250000x128, .f32⟩
  | .hbm, ⟨35, _⟩ => ⟨S1250000x128, .f32⟩
  | .hbm, ⟨36, _⟩ => ⟨S1250000x2, .f32⟩
  | .hbm, ⟨37, _⟩ => ⟨S1x2, .f32⟩
  | .hbm, ⟨38, _⟩ => ⟨S1250000x2, .f32⟩
  | .hbm, ⟨39, _⟩ => ⟨S1250000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  slices_S2x1250000_S1x1250000_1_0 : S2x1250000.Slices ![1, 0] S1x1250000
  concatenates_S1250000x64_S1250000x64_S1250000x128_d1 : Shape.Concatenates [S1250000x64, S1250000x64] S1250000x128 1
  bcast_S128_S1x128_1 : S128.BroadcastsInDim S1x128 (![1] : Fin 1 → Fin S1x128.rank)
  bcast_S1x128_S1250000x128_0_1 : S1x128.BroadcastsInDim S1250000x128 (![0, 1] : Fin 2 → Fin S1250000x128.rank)
  bcast_S_S1250000x128 : S_.BroadcastsInDim S1250000x128 (![] : Fin 0 → Fin S1250000x128.rank)
  bcast_S2_S1x2_1 : S2.BroadcastsInDim S1x2 (![1] : Fin 1 → Fin S1x2.rank)
  bcast_S1x2_S1250000x2_0_1 : S1x2.BroadcastsInDim S1250000x2 (![0, 1] : Fin 2 → Fin S1250000x2.rank)
  gather_S100000x64_S1250000x1_S1250000x64_1_0_n_n_0_1_164_wf : GatherDims.WF S100000x64 S1250000x1 S1250000x64 [1] [0] [] [0] [] 1 ![1, 64]
  dot_S1250000x128_S128x128_S1250000x128_1_0_0_1_n_n_wf : DotDims.WF S1250000x128 S128x128 S1250000x128 [1] [0] [0] [1] [] []
  dot_S1250000x128_S128x2_S1250000x2_1_0_0_1_n_n_wf : DotDims.WF S1250000x128 S128x2 S1250000x2 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x128_S128x128_S1250000x128_1_0_0_1_n_n : DotDims S1250000x128 S128x128 S1250000x128 where
  lhsContracting := [1]
  rhsContracting := [0]
  lhsNonContracting := [0]
  rhsNonContracting := [1]
  lhsBatch := []
  rhsBatch := []
  wf := dot_S1250000x128_S128x128_S1250000x128_1_0_0_1_n_n_wf
def dot_S1250000x128_S128x2_S1250000x2_1_0_0_1_n_n : DotDims S1250000x128 S128x2 S1250000x2 where
  lhsContracting := [1]
  rhsContracting := [0]
  lhsNonContracting := [0]
  rhsNonContracting := [1]
  lhsBatch := []
  rhsBatch := []
  wf := dot_S1250000x128_S128x2_S1250000x2_1_0_0_1_n_n_wf

class Facts : Prop extends Facts₀ where

variable [Facts]
-- ==== Proof.EdgeScore.lean ====
/-
  The score of an edge, as one function of the arrays.

  An edge e has a source row hs(e, ·) and a destination row hd(e, ·), each of 64 features. The hidden layer
  has 128 units: unit j of edge e is

      hidden(e, j) = max( (Σ_{k<64} hs(e,k)·W1(k,j) + Σ_{k<64} hd(e,k)·W1(64+k,j)) + b1(j), 0 ),

  the first 64 rows of W1 meeting the source row and the last 64 the destination row, and class c of edge e scores

      score(e, c) = (Σ_{j<128} hidden(e,j)·W2(j,c)) + b2(c).

  Everything is read on the extended reals; the zero of the rectifier is kept as the word it is printed with.
  No program is mentioned here: the two gathered arrays hs and hd are parameters.
-/
import Idealize.ShloMosaic.PureOps.Ideal
import Idealize.ShloMosaic.Lib.ValueIdx

noncomputable section

namespace Cert.EdgeScore

open Idealize.ShloMosaic Idealize.ShloMosaic.ValueIdx

/-- Row k < 64 of the weight matrix, as a row of the full 128: the part that meets the source features. -/
abbrev top (k : Fin 64) : Fin 128 := ⟨k.val, by have := k.isLt; omega⟩

/-- Row 64 + k of the weight matrix: the part that meets the destination features. -/
abbrev bot (k : Fin 64) : Fin 128 := ⟨64 + k.val, by have := k.isLt; omega⟩

/-- Hidden unit j of edge e: the rectified affine form of the edge's two feature rows. -/
def hidden (hs hd : (⟨2, ![1250000, 64]⟩ : Shape).Idx → EReal) (w1 : (⟨2, ![128, 128]⟩ : Shape).Idx → EReal)
    (b1 : (⟨1, ![128]⟩ : Shape).Idx → EReal) (e : Fin 1250000) (j : Fin 128) : EReal :=
  max ((∑ k : Fin 64, hs (ix2 e k) * w1 (ix2 (top k) j) + ∑ k : Fin 64, hd (ix2 e k) * w1 (ix2 (bot k) j)) + b1 (ix1 j))
    (Ideal.ofBits .f32 0x00000000#32)

/-- The score of class c for edge e. -/
def scoreAt (hs hd : (⟨2, ![1250000, 64]⟩ : Shape).Idx → EReal) (w1 : (⟨2, ![128, 128]⟩ : Shape).Idx → EReal)
    (b1 : (⟨1, ![128]⟩ : Shape).Idx → EReal) (w2 : (⟨2, ![128, 2]⟩ : Shape).Idx → EReal) (b2 : (⟨1, ![2]⟩ : Shape).Idx → EReal)
    (e : Fin 1250000) (c : Fin 2) : EReal :=
  (∑ j : Fin 128, hidden hs hd w1 b1 e j * w2 (ix2 j c)) + b2 (ix1 c)

/-- The whole score array, index by index. -/
def score (hs hd : (⟨2, ![1250000, 64]⟩ : Shape).Idx → EReal) (w1 : (⟨2, ![128, 128]⟩ : Shape).Idx → EReal)
    (b1 : (⟨1, ![128]⟩ : Shape).Idx → EReal) (w2 : (⟨2, ![128, 2]⟩ : Shape).Idx → EReal) (b2 : (⟨1, ![2]⟩ : Shape).Idx → EReal) :
    (⟨2, ![1250000, 2]⟩ : Shape).Idx → EReal :=
  fun i => scoreAt hs hd w1 b1 w2 b2 (i 0) (i 1)

theorem score_apply (hs hd : (⟨2, ![1250000, 64]⟩ : Shape).Idx → EReal) (w1 : (⟨2, ![128, 128]⟩ : Shape).Idx → EReal)
    (b1 : (⟨1, ![128]⟩ : Shape).Idx → EReal) (w2 : (⟨2, ![128, 2]⟩ : Shape).Idx → EReal) (b2 : (⟨1, ![2]⟩ : Shape).Idx → EReal)
    (e : Fin 1250000) (c : Fin 2) : score hs hd w1 b1 w2 b2 (ix2 e c) = scoreAt hs hd w1 b1 w2 b2 e c := rfl

end Cert.EdgeScore

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.BlockScore.lean ====
/-
  What the kernel body computes for one block of 10000 edges, read at an entry.

  The body multiplies the block's source rows by the top half of the first weight matrix and its destination
  rows by the bottom half, adds the two products and the bias row, rectifies, multiplies by the second weight
  matrix and adds the second bias row. On the extended reals no product rounds and a change of float format is
  the identity, so entry (p, q) of the result is

      (Σ_{j<128} max((Σ_{k<64} x0(p,k)·x2(k,j) + Σ_{k<64} x1(p,k)·x3(k,j)) + x4(0,j), 0) · x5(j,q)) + x6(0,q).
-/
import proofs.«140888_j42597485641877_2_alg».proof.Proof.Gen.KernelIdeal.Skeleton
import proofs.«140888_j42597485641877_2_alg».proof.Proof.LibPlainDot
import proofs.«140888_j42597485641877_2_alg».proof.Proof.EdgeScore
import Idealize.ShloMosaic.Lib.ValueLayout
import Idealize.ShloMosaic.Lib.Pipeline.Value

noncomputable section

namespace Cert.BlockScore

open Idealize.ShloMosaic Idealize.ShloMosaic.ValueIdx Cert.KernelIdeal Cert.KernelIdeal.Gen

/-- The rectified hidden layer of the block, as the body computes it. -/
def hid (x0 x1 : Vec Ideal S10000x64 .bf16) (x2 x3 : Vec Ideal S64x128 .f32) (x4 : Vec Ideal S1x128 .f32) : FVec Ideal S10000x128 .f32 :=
  maximumf
    (addf
      (addf
        (matmul dot_S10000x64_S64x128_S10000x128_1_0_0_1_n_n none
          (shapeCast S10000x64 x0 shapeCasts_S10000x64_S10000x64 : FVec Ideal S10000x64 .bf16)
          (truncf .bf16 (shapeCast S64x128 x2 shapeCasts_S64x128_S64x128 : FVec Ideal S64x128 .f32) bitsLt_bf16_f32 : FVec Ideal S64x128 .bf16)
          (constant S10000x128 .f32 0x00000000#32))
        (matmul dot_S10000x64_S64x128_S10000x128_1_0_0_1_n_n none
          (shapeCast S10000x64 x1 shapeCasts_S10000x64_S10000x64 : FVec Ideal S10000x64 .bf16)
          (truncf .bf16 (shapeCast S64x128 x3 shapeCasts_S64x128_S64x128 : FVec Ideal S64x128 .f32) bitsLt_bf16_f32 : FVec Ideal S64x128 .bf16)
          (constant S10000x128 .f32 0x00000000#32)))
      (broadcastTo S10000x128 (shapeCast S1x128 x4 shapeCasts_S1x128_S1x128 : FVec Ideal S1x128 .f32) broadcasts_S1x128_S10000x128))
    (broadcast S10000x128 (Scalar.ofBits .f32 0x00000000#32 : Ideal .f32))

/-- The body's stored value is the second product of the hidden layer plus the second bias row. -/
theorem pay_eq (x0 x1 : Vec Ideal S10000x64 .bf16) (x2 x3 : Vec Ideal S64x128 .f32) (x4 : Vec Ideal S1x128 .f32)
    (x5 : Vec Ideal S128x2 .f32) (x6 : Vec Ideal S1x2 .f32) :
    k0_pay1 (F := Ideal) x0 x1 x2 x3 x4 x5 x6
      = addf (matmul dot_S10000x128_S128x2_S10000x2_1_0_0_1_n_n none
            (truncf .bf16 (hid x0 x1 x2 x3 x4) bitsLt_bf16_f32 : FVec Ideal S10000x128 .bf16)
            (truncf .bf16 (x5 : FVec Ideal S128x2 .f32) bitsLt_bf16_f32 : FVec Ideal S128x2 .bf16) (constant S10000x2 .f32 0x00000000#32))
        (broadcastTo S10000x2 (shapeCast S1x2 x6 shapeCasts_S1x2_S1x2 : FVec Ideal S1x2 .f32) broadcasts_S1x2_S10000x2) := rfl

/-- Hidden unit j of the block's edge p. -/
theorem hid_apply (x0 x1 : Vec Ideal S10000x64 .bf16) (x2 x3 : Vec Ideal S64x128 .f32) (x4 : Vec Ideal S1x128 .f32)
    (p : Fin 10000) (j : Fin 128) :
    hid x0 x1 x2 x3 x4 (ix2 p j)
      = max ((∑ k : Fin 64, x0 (ix2 p k) * x2 (ix2 k j) + ∑ k : Fin 64, x1 (ix2 p k) * x3 (ix2 k j)) + x4 (ix2 (0 : Fin 1) j))
          (Ideal.ofBits .f32 0x00000000#32) := by
  unfold hid
  rw [maximumf_apply, addf_apply, addf_apply, broadcast_apply,
    Cert.PlainDot.matmul_zero_apply dot_S10000x64_S64x128_S10000x128_1_0_0_1_n_n rfl,
    Cert.PlainDot.matmul_zero_apply dot_S10000x64_S64x128_S10000x128_1_0_0_1_n_n rfl,
    broadcastTo_1b_ab_apply]
  simp only [shapeCast_self, truncf_apply]
  rfl

/-- Entry (p, q) of what the body stores. -/
theorem pay_apply (x0 x1 : Vec Ideal S10000x64 .bf16) (x2 x3 : Vec Ideal S64x128 .f32) (x4 : Vec Ideal S1x128 .f32)
    (x5 : Vec Ideal S128x2 .f32) (x6 : Vec Ideal S1x2 .f32) (p : Fin 10000) (q : Fin 2) :
    k0_pay1 (F := Ideal) x0 x1 x2 x3 x4 x5 x6 (ix2 p q)
      = (∑ j : Fin 128,
          max ((∑ k : Fin 64, x0 (ix2 p k) * x2 (ix2 k j) + ∑ k : Fin 64, x1 (ix2 p k) * x3 (ix2 k j)) + x4 (ix2 (0 : Fin 1) j))
              (Ideal.ofBits .f32 0x00000000#32) * x5 (ix2 j q))
        + x6 (ix2 (0 : Fin 1) q) := by
  rw [pay_eq, addf_apply, Cert.PlainDot.matmul_zero_apply dot_S10000x128_S128x2_S10000x2_1_0_0_1_n_n rfl, broadcastTo_1b_ab_apply]
  simp only [shapeCast_self, truncf_apply, hid_apply]

/-- When the block's rows are rows of the gathered arrays and its weights and biases are the arguments' — edge p of
    the block being edge e of the list — entry (p, q) of what the body stores is the score of class q for edge e. -/
theorem point_eq (hs hd : (⟨2, ![1250000, 64]⟩ : Shape).Idx → EReal) (w1 : (⟨2, ![128, 128]⟩ : Shape).Idx → EReal)
    (b1 : (⟨1, ![128]⟩ : Shape).Idx → EReal) (w2 : (⟨2, ![128, 2]⟩ : Shape).Idx → EReal) (b2 : (⟨1, ![2]⟩ : Shape).Idx → EReal)
    (x0 x1 : Vec Ideal S10000x64 .bf16) (x2 x3 : Vec Ideal S64x128 .f32) (x4 : Vec Ideal S1x128 .f32)
    (x5 : Vec Ideal S128x2 .f32) (x6 : Vec Ideal S1x2 .f32) (e : Fin 1250000) (p : Fin 10000) (q : Fin 2)
    (h0 : ∀ k : Fin 64, x0 (ix2 p k) = hs (ix2 e k)) (h1 : ∀ k : Fin 64, x1 (ix2 p k) = hd (ix2 e k))
    (h2 : ∀ (k : Fin 64) (j : Fin 128), x2 (ix2 k j) = w1 (ix2 (Cert.EdgeScore.top k) j))
    (h3 : ∀ (k : Fin 64) (j : Fin 128), x3 (ix2 k j) = w1 (ix2 (Cert.EdgeScore.bot k) j))
    (h4 : ∀ j : Fin 128, x4 (ix2 (0 : Fin 1) j) = b1 (ix1 j))
    (h5 : ∀ (j : Fin 128) (q : Fin 2), x5 (ix2 j q) = w2 (ix2 j q))
    (h6 : ∀ q : Fin 2, x6 (ix2 (0 : Fin 1) q) = b2 (ix1 q)) :
    k0_pay1 (F := Ideal) x0 x1 x2 x3 x4 x5 x6 (ix2 p q) = Cert.EdgeScore.scoreAt hs hd w1 b1 w2 b2 e q := by
  rw [pay_apply]
  unfold Cert.EdgeScore.scoreAt Cert.EdgeScore.hidden
  simp only [h0, h1, h2, h3, h4, h5, h6]

end Cert.BlockScore

end
-- ==== Proof.EntryArrays.lean ====
/-
  The arrays the kernel's region finds, as functions of the program's arguments.

  Before the region the host takes the two rows of the edge list, wraps a negative node number once by the
  table's height, gathers the node table's rows at them (the table first changed to a shorter float format, which
  on the extended reals changes nothing), cuts the first weight matrix into its top and bottom 64 rows, and views
  each bias vector as a one-row matrix. Here each of those arrays is read back off the host operations, and the
  cut and reshaped ones at an entry.
-/
import proofs.«140888_j42597485641877_2_alg».proof.Proof.Gen.KernelIdeal.Frame
import proofs.«140888_j42597485641877_2_alg».proof.Proof.EdgeScore
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.EdgeScore

variable (m : (ℓ : Loc nD τ sig) → Buf (Elt Ideal) ℓ)

/-- A row of node numbers with each negative one wrapped once by the table's 100000 rows, set as a column of
    start indices. -/
def startColumn (row : IVec S1250000 32) : IVec S1250000x1 32 :=
  broadcastInDim S1250000x1 ![0] bcast_S1250000_S1250000x1_0
    (select (cmpi .slt row (broadcastInDim S1250000 ![] bcast_S_S1250000 (constantI S_ 32 0#32)))
      (addi row (broadcastInDim S1250000 ![] bcast_S_S1250000 (constantI S_ 32 100000#32))) row)

/-- The source endpoints: row 0 of the edge list. -/
def sourceRow (ei : IVec S2x1250000 32) : IVec S1250000 32 :=
  shapeCast _ (extractStridedSlice S1x1250000 ![0, 0] ei slices_S2x1250000_S1x1250000_0_0) shapeCasts_S1x1250000_S1250000

/-- The destination endpoints: row 1 of the edge list. -/
def destRow (ei : IVec S2x1250000 32) : IVec S1250000 32 :=
  shapeCast _ (extractStridedSlice S1x1250000 ![1, 0] ei slices_S2x1250000_S1x1250000_1_0) shapeCasts_S1x1250000_S1250000

/-- The node table's rows at a row of node numbers. -/
def rowsAt (h : S100000x64.Idx → EReal) (row : IVec S1250000 32) : S1250000x64.Idx → EReal :=
  Host.gather gather_S100000x64_S1250000x1_S1250000x64_1_0_n_n_0_1_164 h (startColumn row)

set_option maxHeartbeats 2000000 in
/-- The region's first window is staged from the node rows of the source endpoints. -/
theorem source_eq (c : Dev nD) :
    (V m c main_v9 : S1250000x64.Idx → EReal)
      = rowsAt (m ((c : Thread nD τ).loc main_arg0)) (sourceRow (m ((c : Thread nD τ).loc main_arg1))) := by
  dsimp only [Gen.V, Gen.hostOps0]
  after_results_simp <;> rfl

set_option maxHeartbeats 2000000 in
/-- The region's second window is staged from the node rows of the destination endpoints. -/
theorem dest_eq (c : Dev nD) :
    (V m c main_v18 : S1250000x64.Idx → EReal)
      = rowsAt (m ((c : Thread nD τ).loc main_arg0)) (destRow (m ((c : Thread nD τ).loc main_arg1))) := by
  dsimp only [Gen.V, Gen.hostOps0]
  after_results_simp <;> rfl

/-- The third window's array is the top 64 rows of the first weight matrix. -/
theorem top_apply (c : Dev nD) (k : Fin 64) (j : Fin 128) :
    (V m c main_v19 : S64x128.Idx → EReal) (ix2 k j) = (m ((c : Thread nD τ).loc main_arg2) : S128x128.Idx → EReal) (ix2 (top k) j) := by
  have e : (V m c main_v19 : S64x128.Idx → EReal)
      = extractStridedSlice S64x128 ![0, 0] (m ((c : Thread nD τ).loc main_arg2) : S128x128.Idx → EReal) slices_S128x128_S64x128_0_0 := by
    dsimp only [Gen.V, Gen.hostOps0]
    after_results_simp <;> rfl
  rw [e]
  exact slice2_axis0_apply 0 _ _ k j (top k) (Nat.zero_add _).symm

/-- The fourth window's array is the bottom 64 rows of the first weight matrix. -/
theorem bot_apply (c : Dev nD) (k : Fin 64) (j : Fin 128) :
    (V m c main_v20 : S64x128.Idx → EReal) (ix2 k j) = (m ((c : Thread nD τ).loc main_arg2) : S128x128.Idx → EReal) (ix2 (bot k) j) := by
  have e : (V m c main_v20 : S64x128.Idx → EReal)
      = extractStridedSlice S64x128 ![64, 0] (m ((c : Thread nD τ).loc main_arg2) : S128x128.Idx → EReal) slices_S128x128_S64x128_64_0 := by
    dsimp only [Gen.V, Gen.hostOps0]
    after_results_simp <;> rfl
  rw [e]
  exact slice2_axis0_apply 64 _ _ k j (bot k) rfl

/-- The fifth window's array is the first bias vector as one row. -/
theorem bias1_apply (c : Dev nD) (j : Fin 128) :
    (V m c main_v21 : S1x128.Idx → EReal) (ix2 (0 : Fin 1) j) = (m ((c : Thread nD τ).loc main_arg3) : S128.Idx → EReal) (ix1 j) := by
  have e : (V m c main_v21 : S1x128.Idx → EReal)
      = shapeCast S1x128 (m ((c : Thread nD τ).loc main_arg3) : S128.Idx → EReal) shapeCasts_S128_S1x128 := by
    dsimp only [Gen.V, Gen.hostOps0]
    after_results_simp <;> rfl
  rw [e]
  exact shapeCast_a_1a_apply _ _ 0 j

/-- The seventh window's array is the second bias vector as one row. -/
theorem bias2_apply (c : Dev nD) (q : Fin 2) :
    (V m c main_v22 : S1x2.Idx → EReal) (ix2 (0 : Fin 1) q) = (m ((c : Thread nD τ).loc main_arg5) : S2.Idx → EReal) (ix1 q) := by
  have e : (V m c main_v22 : S1x2.Idx → EReal)
      = shapeCast S1x2 (m ((c : Thread nD τ).loc main_arg5) : S2.Idx → EReal) shapeCasts_S2_S1x2 := by
    dsimp only [Gen.V, Gen.hostOps0]
    after_results_simp <;> rfl
  rw [e]
  exact shapeCast_a_1a_apply _ _ 0 q

end Cert.KernelIdeal.Entry

end
-- ==== Proof.KernelScore.lean ====
/-
  The kernel's result array is the score array.

  The grid has 125 points. At point t the two edge windows hold rows 10000·t … 10000·t + 9999 of the gathered
  source and destination arrays, the five weight and bias windows hold their whole arrays, and the output
  window's block is rows 10000·t … 10000·t + 9999 of the result. So edge p of point t's block is edge
  10000·t + p of the list, what the point writes back is that block of the score array, and the 125 blocks
  cover the result's 1250000 rows.
-/
import proofs.«140888_j42597485641877_2_alg».proof.Proof.Gen.KernelIdeal.Value
import proofs.«140888_j42597485641877_2_alg».proof.Proof.EdgeScore
import proofs.«140888_j42597485641877_2_alg».proof.Proof.BlockScore
import proofs.«140888_j42597485641877_2_alg».proof.Proof.EntryArrays

noncomputable section

namespace Cert.KernelIdeal.Score

open Cert.KernelIdeal Cert.KernelIdeal.Gen Idealize.ShloMosaic Idealize.ShloMosaic.TcCoe Idealize.SL.Sem
open Idealize.ShloMosaic.ValueIdx Cert.EdgeScore
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 125 points: the two edge windows and the output move down one block of rows per
    point; the weights and biases stay where they are. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Edge p of point t's block, as an edge of the list. -/
def edge (t : Fin cfg0.N) (p : Fin 10000) : Fin 1250000 :=
  ⟨t.val * 10000 + p.val, by have := t.isLt; have h : cfg0.N = 125 := N_0; have := p.isLt; omega⟩

/-- The first window's block at point t: rows of the gathered source array. -/
theorem source_block (c : Dev nD) (t : Fin cfg0.N) (p : Fin 10000) (k : Fin 64) :
    (iblk m c 0 t : Vec Ideal S10000x64 .bf16) (ix2 p k) = (V m c main_v9 : S1250000x64.Idx → EReal) (ix2 (edge t p) k) := by
  obtain ⟨e0, e1, -⟩ := index_facts t
  show (V m c main_v9 : S1250000x64.Idx → EReal) (((cfg0.win 0).blk t).view.emb (ix2 p k)) = _
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The second window's block at point t: rows of the gathered destination array. -/
theorem dest_block (c : Dev nD) (t : Fin cfg0.N) (p : Fin 10000) (k : Fin 64) :
    (iblk m c 1 t : Vec Ideal S10000x64 .bf16) (ix2 p k) = (V m c main_v18 : S1250000x64.Idx → EReal) (ix2 (edge t p) k) := by
  obtain ⟨-, -, e0, e1, -⟩ := index_facts t
  show (V m c main_v18 : S1250000x64.Idx → EReal) (((cfg0.win 1).blk t).view.emb (ix2 p k)) = _
  refine congrArg _ (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The third window's block at any point is its whole array. -/
theorem top_block (c : Dev nD) (t : Fin cfg0.N) (k : Fin 64) (j : Fin 128) :
    (iblk m c 2 t : Vec Ideal S64x128 .f32) (ix2 k j) = (V m c main_v19 : S64x128.Idx → EReal) (ix2 k j) := by
  obtain ⟨-, -, -, -, e0, e1, -⟩ := index_facts t
  show (V m c main_v19 : S64x128.Idx → EReal) (((cfg0.win 2).blk t).view.emb (ix2 k j)) = _
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 128 + 1 * j.val = j.val; rw [e1]; omega

/-- The fourth window's block at any point is its whole array. -/
theorem bot_block (c : Dev nD) (t : Fin cfg0.N) (k : Fin 64) (j : Fin 128) :
    (iblk m c 3 t : Vec Ideal S64x128 .f32) (ix2 k j) = (V m c main_v20 : S64x128.Idx → EReal) (ix2 k j) := by
  obtain ⟨-, -, -, -, -, -, e0, e1, -⟩ := index_facts t
  show (V m c main_v20 : S64x128.Idx → EReal) (((cfg0.win 3).blk t).view.emb (ix2 k j)) = _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 128 + 1 * j.val = j.val; rw [e1]; omega

/-- The fifth window's block at any point is its whole one-row array. -/
theorem bias1_block (c : Dev nD) (t : Fin cfg0.N) (j : Fin 128) :
    (iblk m c 4 t : Vec Ideal S1x128 .f32) (ix2 (0 : Fin 1) j) = (V m c main_v21 : S1x128.Idx → EReal) (ix2 (0 : Fin 1) j) := by
  obtain ⟨-, -, -, -, -, -, -, -, e0, e1, -⟩ := index_facts t
  show (V m c main_v21 : S1x128.Idx → EReal) (((cfg0.win 4).blk t).view.emb (ix2 (0 : Fin 1) j)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 128 + 1 * j.val = j.val; rw [e1]; omega

/-- The sixth window's block at any point is the whole second weight matrix. -/
theorem w2_block (c : Dev nD) (t : Fin cfg0.N) (j : Fin 128) (q : Fin 2) :
    (iblk m c 5 t : Vec Ideal S128x2 .f32) (ix2 j q) = (V m c main_arg4 : S128x2.Idx → EReal) (ix2 j q) := by
  obtain ⟨-, -, -, -, -, -, -, -, -, -, e0, e1, -⟩ := index_facts t
  show (V m c main_arg4 : S128x2.Idx → EReal) (((cfg0.win 5).blk t).view.emb (ix2 j q)) = _
  refine congrArg _ (funext fun a => Fin.ext ?_)
  match a with
  | ⟨0, _⟩ => show win0_5.index t (0 : Fin 2) * 128 + 1 * j.val = j.val; rw [e0]; omega
  | ⟨1, _⟩ => show win0_5.index t (1 : Fin 2) * 2 + 1 * q.val = q.val; rw [e1]; omega

/-- The seventh window's block at any point is its whole one-row array. -/
theorem bias2_block (c : Dev nD) (t : Fin cfg0.N) (q : Fin 2) :
    (iblk m c 6 t : Vec Ideal S1x2 .f32) (ix2 (0 : Fin 1) q) = (V m c main_v22 : S1x2.Idx → EReal) (ix2 (0 : Fin 1) q) := by
  obtain ⟨-, -, -, -, -, -, -, -, -, -, -, -, e0, e1, -⟩ := index_facts t
  show (V m c main_v22 : S1x2.Idx → EReal) (((cfg0.win 6).blk t).view.emb (ix2 (0 : Fin 1) q)) = _
  refine congrArg _ (funext fun a => Fin.ext ?_)
  match a with
  | ⟨0, _⟩ => show win0_6.index t (0 : Fin 2) * 1 + 1 * 0 = 0; rw [e0]
  | ⟨1, _⟩ => show win0_6.index t (1 : Fin 2) * 2 + 1 * q.val = q.val; rw [e1]; omega

/-- The score array of the arrays the region finds and the arguments as launched. -/
abbrev result (c : Dev nD) : S1250000x2.Idx → EReal :=
  score (V m c main_v9) (V m c main_v18) (m ((c : Thread nD τ).loc main_arg2)) (m ((c : Thread nD τ).loc main_arg3))
    (m ((c : Thread nD τ).loc main_arg4)) (m ((c : Thread nD τ).loc main_arg5))

/-- Point t writes back block t of the score array. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero_offsets]
  simp only [View.ld_unit_zero (S := S10000x64) zero_offsets, View.ld_unit_zero (S := S64x128) zero_offsets,
    View.ld_unit_zero (S := S1x128) zero_offsets, View.ld_unit_zero (S := S128x2) zero_offsets,
    View.ld_unit_zero (S := S1x2) zero_offsets]
  funext y
  obtain ⟨p, q, rfl⟩ : ∃ (p : Fin 10000) (q : Fin 2), y = ix2 p q := ⟨y 0, y 1, eq_ix2 y⟩
  have hout : ((cfg0.win 7).blk t).view.emb (ix2 p q) = (ix2 (edge t p) q : S1250000x2.Idx) := by
    obtain ⟨-, -, -, -, -, -, -, -, -, -, -, -, -, -, e0, e1⟩ := index_facts t
    refine funext fun a => Fin.ext ?_
    match a with
    | ⟨0, _⟩ => show win0_7.index t (0 : Fin 2) * 10000 + 1 * p.val = t.val * 10000 + p.val; rw [e0]; omega
    | ⟨1, _⟩ => show win0_7.index t (1 : Fin 2) * 2 + 1 * q.val = q.val; rw [e1]; omega
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  rw [hout]
  refine (Cert.BlockScore.point_eq (V m c main_v9) (V m c main_v18) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) (iblk m c 6 t)
    (edge t p) p q (source_block m c t p) (dest_block m c t p)
    (fun k j => (top_block m c t k j).trans (Cert.KernelIdeal.Entry.top_apply m c k j))
    (fun k j => (bot_block m c t k j).trans (Cert.KernelIdeal.Entry.bot_apply m c k j))
    (fun j => (bias1_block m c t j).trans (Cert.KernelIdeal.Entry.bias1_apply m c j))
    (fun j q => (w2_block m c t j q).trans (congrFun (V_main_arg4 m c) (ix2 j q)))
    (fun q => (bias2_block m c t q).trans (Cert.KernelIdeal.Entry.bias2_apply m c q))).trans ?_
  rfl

/-- An index of the result is in point t's block iff each coordinate is in the block's range on its axis. -/
theorem mem_block (t : Fin cfg0.N) (i : S1250000x2.Idx) :
    i ∈ ((cfg0.win 7).blk t).view.set ↔ ∀ a : Fin 2, win0_7.index t a * S10000x2.size a ≤ (i a).val ∧ (i a).val < win0_7.index t a * S10000x2.size a + S10000x2.size a := by
  show i ∈ ((View.whole main_v23).slice (win0_7.rect t)).set ↔ _
  rw [View.set_slice_whole, Rect.mem_set_unit]
  exact Iff.rfl

/-- Every row of the result is in some point's block: row r in that of point r / 10000. -/
theorem covered (i : S1250000x2.Idx) :
    ∃ t : Fin cfg0.N, (cfg0.win 7).flush t = true ∧ i ∈ ((cfg0.win 7).blk t).view.set := by
  have hi0 : (i 0).val < 1250000 := (i 0).isLt
  have hi1 : (i 1).val < 2 := (i 1).isLt
  have hN : cfg0.N = 125 := N_0
  have ht : (i 0).val / 10000 < cfg0.N := by omega
  obtain ⟨-, -, -, -, -, -, -, -, -, -, -, -, -, -, e0, e1⟩ := index_facts ⟨(i 0).val / 10000, ht⟩
  refine ⟨⟨(i 0).val / 10000, ht⟩, flush0_7 _, ?_⟩
  rw [mem_block]
  intro a
  match a with
  | ⟨0, _⟩ =>
    show win0_7.index ⟨(i 0).val / 10000, ht⟩ (0 : Fin 2) * 10000 ≤ (i 0).val ∧ (i 0).val < win0_7.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_7.index ⟨(i 0).val / 10000, ht⟩ (1 : Fin 2) * 2 ≤ (i 1).val ∧ (i 1).val < win0_7.index ⟨(i 0).val / 10000, ht⟩ (1 : Fin 2) * 2 + 2
    rw [e1]
    omega

/-- So after the run the result array is the score array. -/
theorem final (c : Dev nD) : (dats m 0 c).arrAt 7 cfg0.N = result m c :=
  (dats m 0 c).arrAt_eq_of_cover 7 (result m c) (fun t _ => flushed_eq m c t) covered

/-- The run, read: the result at the score array, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Score

end
-- ==== Proof.LibRowJoin.lean ====
/-
  Rows joined side by side, read at an index.

  Joining arrays of equal row count along the column axis lays their rows end to end: row `p` of the result is row
  `p` of the first array, then row `p` of the second, and so on. This file names the joined row of two or three
  rows (`join2`, `join3`), reads a two- or three-piece concatenation of rank-2 arrays along axis 1 at `(p, q)` as
  that joined row at `q`, and states the one law of sums such a join obeys: a sum over a joined row of products
  with a second factor is the sum over the first row plus the sum over the second, the second factor read at
  the matching positions. All statements are general in the extents.
-/
import Idealize.ShloMosaic.Lib.Pipeline.Value
import Idealize.ShloMosaic.Lib.ValueIdx

noncomputable section

namespace Cert.Lib.RowJoin

open Idealize.ShloMosaic Idealize.ShloMosaic.ValueIdx

variable {α : Type}

/-- Two rows laid end to end: position `q < n1` reads the first row at `q`, position `q ≥ n1` the second at `q - n1`. -/
def join2 {n1 n2 N : ℕ} (hN : N = n1 + n2) (u : Fin n1 → α) (v : Fin n2 → α) : Fin N → α := fun q =>
  if h : q.val < n1 then u ⟨q.val, h⟩ else v ⟨q.val - n1, by have := q.isLt; omega⟩

/-- Three rows laid end to end. -/
def join3 {n1 n2 n3 N : ℕ} (hN : N = n1 + n2 + n3) (u : Fin n1 → α) (v : Fin n2 → α) (w : Fin n3 → α) : Fin N → α := fun q =>
  if h : q.val < n1 then u ⟨q.val, h⟩
  else if h' : q.val < n1 + n2 then v ⟨q.val - n1, by omega⟩
  else w ⟨q.val - (n1 + n2), by have := q.isLt; omega⟩

theorem join2_left {n1 n2 N : ℕ} (hN : N = n1 + n2) (u : Fin n1 → α) (v : Fin n2 → α) (k : Fin n1) :
    join2 hN u v ⟨k.val, by have := k.isLt; omega⟩ = u k := by
  unfold join2
  rw [dif_pos (show k.val < n1 from k.isLt)]

theorem join2_right {n1 n2 N : ℕ} (hN : N = n1 + n2) (u : Fin n1 → α) (v : Fin n2 → α) (k : Fin n2) :
    join2 hN u v ⟨n1 + k.val, by have := k.isLt; omega⟩ = v k := by
  unfold join2
  rw [dif_neg (show ¬ n1 + k.val < n1 by omega)]
  exact congrArg v (Fin.ext (by show n1 + k.val - n1 = k.val; omega))

/-- A sum over the positions of a joined row, each term a product with a second factor, splits into the sum over
    the first row and the sum over the second: only commutativity and associativity of addition are used, so this
    holds in any commutative monoid with a multiplication (the extended reals included, infinities and all). -/
theorem sum_join2_mul {M : Type} [AddCommMonoid M] [Mul M] {n1 n2 N : ℕ} (hN : N = n1 + n2) (u : Fin n1 → M) (v : Fin n2 → M)
    (f : Fin N → M) :
    ∑ q : Fin N, join2 hN u v q * f q
      = (∑ k : Fin n1, u k * f ⟨k.val, by have := k.isLt; omega⟩) + ∑ k : Fin n2, v k * f ⟨n1 + k.val, by have := k.isLt; omega⟩ := by
  subst hN
  rw [Fin.sum_univ_add]
  refine congrArg₂ (· + ·) (Finset.sum_congr rfl fun k _ => ?_) (Finset.sum_congr rfl fun k _ => ?_)
  · exact congrArg (· * _) (join2_left rfl u v k)
  · exact congrArg (· * _) (join2_right rfl u v k)

/-- Two rank-2 arrays of `R` rows joined along axis 1: entry `(p, q)` is the joined row `p` at `q`. -/
theorem concat2_cols_apply {R n1 n2 N : ℕ} (hN : N = n1 + n2) (x1 : (⟨2, ![R, n1]⟩ : Shape).Idx → α) (x2 : (⟨2, ![R, n2]⟩ : Shape).Idx → α)
    (h : Shape.Concatenates [(⟨2, ![R, n1]⟩ : Shape), ⟨2, ![R, n2]⟩] ⟨2, ![R, N]⟩ 1) (p : Fin R) (q : Fin N) :
    concatenate ⟨2, ![R, N]⟩ 1 [⟨⟨2, ![R, n1]⟩, x1⟩, ⟨⟨2, ![R, n2]⟩, x2⟩] h (ix2 p q)
      = join2 hN (fun k => x1 (ix2 p k)) (fun k => x2 (ix2 p k)) q := by
  unfold join2
  by_cases hq : q.val < n1
  · rw [dif_pos hq]
    refine concatenate_pair_apply_left 1 x1 x2 h (ix2 p q) rfl (ix2 p ⟨q.val, hq⟩) fun b => ?_
    match b with
    | ⟨0, _⟩ => rfl
    | ⟨1, _⟩ => rfl
  · rw [dif_neg hq]
    refine concatenate_pair_apply_right 1 x1 x2 h (ix2 p q) rfl rfl (ix2 p ⟨q.val - n1, by have := q.isLt; omega⟩) (fun b hb => ?_) ?_
    · match b with
      | ⟨0, _⟩ => rfl
      | ⟨1, _⟩ => exact absurd rfl hb
    · show q.val - n1 + n1 = q.val
      omega

/-- Three rank-2 arrays of `R` rows joined along axis 1: entry `(p, q)` is the joined row `p` at `q`. -/
theorem concat3_cols_apply {R n1 n2 n3 N : ℕ} (hN : N = n1 + n2 + n3) (x1 : (⟨2, ![R, n1]⟩ : Shape).Idx → α)
    (x2 : (⟨2, ![R, n2]⟩ : Shape).Idx → α) (x3 : (⟨2, ![R, n3]⟩ : Shape).Idx → α)
    (h : Shape.Concatenates [(⟨2, ![R, n1]⟩ : Shape), ⟨2, ![R, n2]⟩, ⟨2, ![R, n3]⟩] ⟨2, ![R, N]⟩ 1) (p : Fin R) (q : Fin N) :
    concatenate ⟨2, ![R, N]⟩ 1 [⟨⟨2, ![R, n1]⟩, x1⟩, ⟨⟨2, ![R, n2]⟩, x2⟩, ⟨⟨2, ![R, n3]⟩, x3⟩] h (ix2 p q)
      = join3 hN (fun k => x1 (ix2 p k)) (fun k => x2 (ix2 p k)) (fun k => x3 (ix2 p k)) q := by
  unfold join3
  by_cases hq : q.val < n1
  · rw [dif_pos hq]
    refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 0 (Nat.zero_lt_succ _) ⟨2, ![R, n1]⟩ x1 rfl rfl 0 rfl (ix2 p ⟨q.val, hq⟩) (fun b hb => ?_) ?_
    · match b with
      | ⟨0, _⟩ => rfl
      | ⟨1, _⟩ => exact absurd rfl hb
    · show 0 + q.val = q.val
      omega
  · rw [dif_neg hq]
    by_cases hq' : q.val < n1 + n2
    · rw [dif_pos hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 1 (Nat.succ_lt_succ (Nat.zero_lt_succ _)) ⟨2, ![R, n2]⟩ x2 rfl rfl n1 (by simp) (ix2 p ⟨q.val - n1, by omega⟩) (fun b hb => ?_) ?_
      · match b with
        | ⟨0, _⟩ => rfl
        | ⟨1, _⟩ => exact absurd rfl hb
      · show n1 + (q.val - n1) = q.val
        omega
    · rw [dif_neg hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 2 (Nat.succ_lt_succ (Nat.succ_lt_succ (Nat.zero_lt_succ _))) ⟨2, ![R, n3]⟩ x3 rfl rfl (n1 + n2) (by simp) (ix2 p ⟨q.val - (n1 + n2), by have := q.isLt; omega⟩) (fun b hb => ?_) ?_
      · match b with
        | ⟨0, _⟩ => rfl
        | ⟨1, _⟩ => exact absurd rfl hb
      · show n1 + n2 + (q.val - (n1 + n2)) = q.val
        omega

end Cert.Lib.RowJoin

end
-- ==== Proof.ReferenceScore.lean ====
/-
  The reference's result array is the score array.

  The reference lays each edge's source row and destination row end to end, multiplies the joined row of 128
  by the whole first weight matrix, adds the bias, rectifies, multiplies by the second weight matrix and adds the
  second bias. A sum over a joined row of products is the sum over its first part plus the sum over its second,
  the second factor read at the matching rows of the weight matrix: the first 64 and the last 64. That is the
  only difference from the score as stated, and it needs nothing but the commutativity and associativity of
  addition, so it holds on the extended reals without any finiteness.
-/
import proofs.«140888_j42597485641877_2_alg».proof.Proof.Gen.ReferenceIdeal.Read
import proofs.«140888_j42597485641877_2_alg».proof.Proof.EdgeScore
import proofs.«140888_j42597485641877_2_alg».proof.Proof.LibRowJoin

noncomputable section

namespace Cert.ReferenceIdeal.Score

open Cert.ReferenceIdeal Cert.ReferenceIdeal.Gen Cert.ReferenceIdeal.Read Idealize.ShloMosaic Idealize.ShloMosaic.TcCoe
open Idealize.ShloMosaic.ValueIdx Cert.EdgeScore Cert.Lib.RowJoin

/-- Hidden unit j of edge e in the reference: the rectified affine form over the joined row, which is the
    score's hidden unit of the two gathered arrays. -/
theorem hidden_eq (x0 : (⟨S100000x64, .f32⟩ : BufTy).Contents (Elt Ideal)) (x1 : (⟨S2x1250000, .i32⟩ : BufTy).Contents (Elt Ideal))
    (x2 : (⟨S128x128, .f32⟩ : BufTy).Contents (Elt Ideal)) (x3 : (⟨S128, .f32⟩ : BufTy).Contents (Elt Ideal))
    (e : Fin 1250000) (j : Fin 128) :
    val_main_v23 (F := Ideal) x0 x1 x2 x3 (ix2 e j)
      = hidden (val_main_v8 (F := Ideal) x0 x1) (val_main_v17 (F := Ideal) x0 x1) x2 x3 e j := by
  have hl : ∀ k : Fin 128, lidx_main_v19 (ix2 e j) k = ix2 e k := fun k => funext fun a => by
    match a with | ⟨0, _⟩ => rfl | ⟨1, _⟩ => rfl
  have hr : ∀ k : Fin 128, ridx_main_v19 (ix2 e j) k = ix2 k j := fun k => funext fun a => by
    match a with | ⟨0, _⟩ => rfl | ⟨1, _⟩ => rfl
  have hb : idx_main_v20 (idx_main_v21 (ix2 e j)) = ix1 j := funext fun a => by
    match a with | ⟨0, _⟩ => rfl
  rw [val_main_v23_apply, val_main_v22_apply, val_main_v19_apply, val_main_v21_apply, val_main_v20_apply,
    val_main_call0_v0_apply, val_main_call0_cst_apply]
  simp only [hl, hr, hb]
  unfold val_main_v18
  have hc : ∀ q : Fin 128,
      concatenate S1250000x128 1 [⟨S1250000x64, val_main_v8 (F := Ideal) x0 x1⟩, ⟨S1250000x64, val_main_v17 (F := Ideal) x0 x1⟩]
          concatenates_S1250000x64_S1250000x64_S1250000x128_d1 (ix2 e q)
        = join2 (n1 := 64) (n2 := 64) (N := 128) rfl (fun k => val_main_v8 (F := Ideal) x0 x1 (ix2 e k))
            (fun k => val_main_v17 (F := Ideal) x0 x1 (ix2 e k)) q :=
    fun q => concat2_cols_apply (R := 1250000) (n1 := 64) (n2 := 64) (N := 128) rfl _ _ _ e q
  simp only [hc]
  rw [sum_join2_mul]
  rfl

/-- The reference's result is the score array of the two gathered arrays and the arguments. -/
theorem result_eq (x0 : (⟨S100000x64, .f32⟩ : BufTy).Contents (Elt Ideal)) (x1 : (⟨S2x1250000, .i32⟩ : BufTy).Contents (Elt Ideal))
    (x2 : (⟨S128x128, .f32⟩ : BufTy).Contents (Elt Ideal)) (x3 : (⟨S128, .f32⟩ : BufTy).Contents (Elt Ideal))
    (x4 : (⟨S128x2, .f32⟩ : BufTy).Contents (Elt Ideal)) (x5 : (⟨S2, .f32⟩ : BufTy).Contents (Elt Ideal)) :
    val_main_v27 (F := Ideal) x0 x1 x2 x3 x4 x5
      = score (val_main_v8 (F := Ideal) x0 x1) (val_main_v17 (F := Ideal) x0 x1) x2 x3 x4 x5 := by
  funext i
  obtain ⟨e, c, rfl⟩ : ∃ (e : Fin 1250000) (c : Fin 2), i = ix2 e c := ⟨i 0, i 1, eq_ix2 i⟩
  have hl : ∀ k : Fin 128, lidx_main_v24 (ix2 e c) k = ix2 e k := fun k => funext fun a => by
    match a with | ⟨0, _⟩ => rfl | ⟨1, _⟩ => rfl
  have hr : ∀ k : Fin 128, ridx_main_v24 (ix2 e c) k = ix2 k c := fun k => funext fun a => by
    match a with | ⟨0, _⟩ => rfl | ⟨1, _⟩ => rfl
  have hb : idx_main_v25 (idx_main_v26 (ix2 e c)) = ix1 c := funext fun a => by
    match a with | ⟨0, _⟩ => rfl
  rw [score_apply, val_main_v27_apply, val_main_v24_apply, val_main_v26_apply, val_main_v25_apply]
  simp only [hl, hr, hb, hidden_eq]
  rfl

end Cert.ReferenceIdeal.Score

end
-- ==== Proof.lean ====
/-
  The edge scorer: a two-layer perceptron on the concatenated features of each edge's endpoints.

  Both programs gather, for each of the 1250000 edges, the node table's row at the edge's source and at its
  destination (a negative node number wrapped once by the table's height). The kernel multiplies the source row
  by the top 64 rows of the first weight matrix and the destination row by the bottom 64 and adds the two; the
  reference lays the two rows end to end and multiplies the joined row by the whole matrix. A sum over a joined
  row is the sum over its two parts, so the hidden layers agree; the bias, the rectifier, the second product and
  the second bias are the same on both sides. On the extended reals no product rounds and a change of float
  format is the identity, and the one law used — splitting a finite sum — holds there without any finiteness, so
  the precondition is never opened.

  The kernel's side: what one grid point stores, entry by entry (BlockScore), the arrays its region finds
  (EntryArrays), and the 125 blocks assembled into the whole result (KernelScore). The reference's side: its
  result read one operation at a time (ReferenceScore). Both are the function EdgeScore states.
-/
import proofs.«140888_j42597485641877_2_alg».proof.Defs
import proofs.«140888_j42597485641877_2_alg».proof.Proof.Gen.Kernel
import proofs.«140888_j42597485641877_2_alg».proof.Proof.Gen.Kernel.Skeleton
import proofs.«140888_j42597485641877_2_alg».proof.Proof.Gen.Kernel.Launch
import proofs.«140888_j42597485641877_2_alg».proof.Proof.Gen.Kernel.Points
import proofs.«140888_j42597485641877_2_alg».proof.Proof.Gen.Kernel.Frame
import proofs.«140888_j42597485641877_2_alg».proof.Proof.Gen.KernelIdeal
import proofs.«140888_j42597485641877_2_alg».proof.Proof.Gen.KernelIdeal.Skeleton
import proofs.«140888_j42597485641877_2_alg».proof.Proof.Gen.KernelIdeal.Launch
import proofs.«140888_j42597485641877_2_alg».proof.Proof.Gen.KernelIdeal.Points
import proofs.«140888_j42597485641877_2_alg».proof.Proof.Gen.KernelIdeal.Frame
import proofs.«140888_j42597485641877_2_alg».proof.Proof.Gen.ReferenceIdeal
import proofs.«140888_j42597485641877_2_alg».proof.Proof.Gen.Pre_finite_inputs
import proofs.«140888_j42597485641877_2_alg».proof.Proof.Gen.KernelIdeal.Value
import proofs.«140888_j42597485641877_2_alg».proof.Proof.Gen.ReferenceIdeal.Run
import proofs.«140888_j42597485641877_2_alg».proof.Proof.Gen.ReferenceIdeal.Read
import Idealize.ShloMosaic.Adequacy
import Idealize.ShloMosaic.Init

import proofs.«140888_j42597485641877_2_alg».proof.Proof.EdgeScore
import proofs.«140888_j42597485641877_2_alg».proof.Proof.KernelScore
import proofs.«140888_j42597485641877_2_alg».proof.Proof.ReferenceScore

noncomputable section

namespace Cert.Proof

open Idealize.ShloMosaic Idealize.ShloMosaic.TcCoe Idealize.SL.Sem

/-- The reference's gathered source rows are the rows the kernel's region finds: the same gather at the same
    wrapped node numbers (the kernel's change of the table's float format is the identity here). -/
theorem source_same (x0 : Cert.ReferenceIdeal.S100000x64.Idx → EReal) (x1 : IVec Cert.ReferenceIdeal.S2x1250000 32) :
    Cert.ReferenceIdeal.Read.val_main_v8 (F := Ideal) x0 x1
      = Cert.KernelIdeal.Entry.rowsAt x0 (Cert.KernelIdeal.Entry.sourceRow x1) := rfl

/-- The same for the destination rows. -/
theorem dest_same (x0 : Cert.ReferenceIdeal.S100000x64.Idx → EReal) (x1 : IVec Cert.ReferenceIdeal.S2x1250000 32) :
    Cert.ReferenceIdeal.Read.val_main_v17 (F := Ideal) x0 x1
      = Cert.KernelIdeal.Entry.rowsAt x0 (Cert.KernelIdeal.Entry.destRow x1) := rfl

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- Both runs end with the result at the score array of the same gathered rows and the same arguments. -/
theorem algebraic : Cert.algebraic_KernelIdeal_ReferenceIdeal := by
  intro m ρ m' ρ' _ hagree
  refine ⟨fun c => Cert.KernelIdeal.Score.result m c, Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v27_eq, Cert.ReferenceIdeal.Score.result_eq, source_same, dest_same,
    h0, h1, h2, h3, h4, h5]
  show _ = Cert.EdgeScore.score (Cert.KernelIdeal.Gen.V m c Cert.KernelIdeal.main_v9) (Cert.KernelIdeal.Gen.V m c Cert.KernelIdeal.main_v18) _ _ _ _
  rw [Cert.KernelIdeal.Entry.source_eq, Cert.KernelIdeal.Entry.dest_eq]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
